-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S2048x1x5 : Shape := ⟨3, ![2048, 1, 5]⟩
abbrev S1x8192x5 : Shape := ⟨3, ![1, 8192, 5]⟩
abbrev S8192 : Shape := ⟨1, ![8192]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S2048x1x5 : S_.BroadcastsInDim S2048x1x5 (![] : Fin 0 → Fin S2048x1x5.rank)
  reducesTo_S2048x1x5_S_d0_1_2 : S2048x1x5.ReducesTo [0, 1, 2] S_
  bcast_S_S1x8192x5 : S_.BroadcastsInDim S1x8192x5 (![] : Fin 0 → Fin S1x8192x5.rank)
  reducesTo_S1x8192x5_S_d0_1_2 : S1x8192x5.ReducesTo [0, 1, 2] S_
  bcast_S_S8192 : S_.BroadcastsInDim S8192 (![] : Fin 0 → Fin S8192.rank)
  reducesTo_S8192_S_d0 : S8192.ReducesTo [0] S_

variable [Facts]

def fn_part1 {F : FTy → Type} [FloatOps F] (main_arg4 : FVec F S1x8192x5 .f32) (main_arg5 : FVec F S8192 .f32) (main_v13 : IVec S_ 1) (main_v16 : IVec S2048x1x5 1) : IVec S_ 1 :=
  let main_c_5 : IVec S_ 1 := constantI S_ 1 1#1
  let main_v17 : IVec S_ 1 := (fun x v => Host.reduce IntOp.andi x v reducesTo_S2048x1x5_S_d0_1_2 h_S_) main_v16 main_c_5
  let main_v18 : IVec S_ 1 := andi main_v13 main_v17
  let main_v19 : FVec F S1x8192x5 .f32 := Host.absf main_arg4
  let main_cst_6 : FVec F S_ .f32 := constant S_ .f32 0x7F800000#32
  let main_v20 : FVec F S1x8192x5 .f32 := broadcastInDim S1x8192x5 ![] bcast_S_S1x8192x5 main_cst_6
  let main_v21 : IVec S1x8192x5 1 := cmpf .olt main_v19 main_v20
  let main_c_7 : IVec S_ 1 := constantI S_ 1 1#1
  let main_v22 : IVec S_ 1 := (fun x v => Host.reduce IntOp.andi x v reducesTo_S1x8192x5_S_d0_1_2 h_S_) main_v21 main_c_7
  let main_v23 : IVec S_ 1 := andi main_v18 main_v22
  let main_v24 : FVec F S8192 .f32 := Host.absf main_arg5
  let main_cst_8 : FVec F S_ .f32 := constant S_ .f32 0x7F800000#32
  let main_v25 : FVec F S8192 .f32 := broadcastInDim S8192 ![] bcast_S_S8192 main_cst_8
  let main_v26 : IVec S8192 1 := cmpf .olt main_v24 main_v25
  let main_c_9 : IVec S_ 1 := constantI S_ 1 1#1
  let main_v27 : IVec S_ 1 := (fun x v => Host.reduce IntOp.andi x v reducesTo_S8192_S_d0 h_S_) main_v26 main_c_9
  let main_v28 : IVec S_ 1 := andi main_v23 main_v27
  main_v28

def fn {F : FTy → Type} [FloatOps F] (main_arg0 : FVec F S4096x2048 .f32) (main_arg1 : FVec F S2048x1x5 .f32) (main_arg2 : FVec F S1x8192x5 .f32) (main_arg3 : FVec F S2048x1x5 .f32) (main_arg4 : FVec F S1x8192x5 .f32) (main_arg5 : FVec F S8192 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S2048x1x5 .f32 := Host.absf main_arg1
  let main_cst_0 : FVec F S_ .f32 := constant S_ .f32 0x7F800000#32
  let main_v5 : FVec F S2048x1x5 .f32 := broadcastInDim S2048x1x5 ![] bcast_S_S2048x1x5 main_cst_0
  let main_v6 : IVec S2048x1x5 1 := cmpf .olt main_v4 main_v5
  let main_c_1 : IVec S_ 1 := constantI S_ 1 1#1
  let main_v7 : IVec S_ 1 := (fun x v => Host.reduce IntOp.andi x v reducesTo_S2048x1x5_S_d0_1_2 h_S_) main_v6 main_c_1
  let main_v8 : IVec S_ 1 := andi main_v3 main_v7
  let main_v9 : FVec F S1x8192x5 .f32 := Host.absf main_arg2
  let main_cst_2 : FVec F S_ .f32 := constant S_ .f32 0x7F800000#32
  let main_v10 : FVec F S1x8192x5 .f32 := broadcastInDim S1x8192x5 ![] bcast_S_S1x8192x5 main_cst_2
  let main_v11 : IVec S1x8192x5 1 := cmpf .olt main_v9 main_v10
  let main_c_3 : IVec S_ 1 := constantI S_ 1 1#1
  let main_v12 : IVec S_ 1 := (fun x v => Host.reduce IntOp.andi x v reducesTo_S1x8192x5_S_d0_1_2 h_S_) main_v11 main_c_3
  let main_v13 : IVec S_ 1 := andi main_v8 main_v12
  let main_v14 : FVec F S2048x1x5 .f32 := Host.absf main_arg3
  let main_cst_4 : FVec F S_ .f32 := constant S_ .f32 0x7F800000#32
  let main_v15 : FVec F S2048x1x5 .f32 := broadcastInDim S2048x1x5 ![] bcast_S_S2048x1x5 main_cst_4
  let main_v16 : IVec S2048x1x5 1 := cmpf .olt main_v14 main_v15
  fn_part1 (F := F) main_arg4 main_arg5 main_v13 main_v16
-- ==== Kernel.lean ====
abbrev S4096x2048 : Shape := ⟨2, ![4096, 2048]⟩
abbrev S2048x1x5 : Shape := ⟨3, ![2048, 1, 5]⟩
abbrev S1x8192x5 : Shape := ⟨3, ![1, 8192, 5]⟩
abbrev S8192 : Shape := ⟨1, ![8192]⟩
abbrev S4096x8192 : Shape := ⟨2, ![4096, 8192]⟩
abbrev S512x2048 : Shape := ⟨2, ![512, 2048]⟩
abbrev S1x512x5 : Shape := ⟨3, ![1, 512, 5]⟩
abbrev S512 : Shape := ⟨1, ![512]⟩
abbrev S512x512 : Shape := ⟨2, ![512, 512]⟩
abbrev S2048x5 : Shape := ⟨2, ![2048, 5]⟩
abbrev S512x5 : Shape := ⟨2, ![512, 5]⟩
abbrev S2048x512 : Shape := ⟨2, ![2048, 512]⟩
abbrev S2048x1 : Shape := ⟨2, ![2048, 1]⟩
abbrev S512x1 : Shape := ⟨2, ![512, 1]⟩
abbrev S1x512 : Shape := ⟨2, ![1, 512]⟩

abbrev nBuf : Space → Nat
  | .hbm => 7
  | .vmem => 12
  | .smem => 0
  | _ => 0

abbrev bufTy : (tb : Table) → Fin (tcTables nBuf tb) → BufTy
  | .hbm, ⟨0, _⟩ => ⟨S4096x2048, .f32⟩
  | .hbm, ⟨1, _⟩ => ⟨S2048x1x5, .f32⟩
  | .hbm, ⟨2, _⟩ => ⟨S1x8192x5, .f32⟩
  | .hbm, ⟨3, _⟩ => ⟨S2048x1x5, .f32⟩
  | .hbm, ⟨4, _⟩ => ⟨S1x8192x5, .f32⟩
  | .hbm, ⟨5, _⟩ => ⟨S8192, .f32⟩
  | .hbm, ⟨6, _⟩ => ⟨S4096x8192, .f32⟩
  | .local _ .vmem, ⟨0, _⟩ => ⟨S512x2048, .f32⟩
  | .local _ .vmem, ⟨1, _⟩ => ⟨S512x2048, .f32⟩
  | .local _ .vmem, ⟨2, _⟩ => ⟨S2048x1x5, .f32⟩
  | .local _ .vmem, ⟨3, _⟩ => ⟨S1x512x5, .f32⟩
  | .local _ .vmem, ⟨4, _⟩ => ⟨S1x512x5, .f32⟩
  | .local _ .vmem, ⟨5, _⟩ => ⟨S2048x1x5, .f32⟩
  | .local _ .vmem, ⟨6, _⟩ => ⟨S1x512x5, .f32⟩
  | .local _ .vmem, ⟨7, _⟩ => ⟨S1x512x5, .f32⟩
  | .local _ .vmem, ⟨8, _⟩ => ⟨S512, .f32⟩
  | .local _ .vmem, ⟨9, _⟩ => ⟨S512, .f32⟩
  | .local _ .vmem, ⟨10, _⟩ => ⟨S512x512, .f32⟩
  | .local _ .vmem, ⟨11, _⟩ => ⟨S512x512, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  ![arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x1x5 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x512x5 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S2048x1x5 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x5 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  inb_S2048x1x5_S2048x1x5_0_0_0 : ∀ a, (![0, 0, 0] : Fin 3 → Nat) a + S2048x1x5.size a ≤ S2048x1x5.size a
  h_S2048x1x5 : 0 < S2048x1x5.numel
  shapeCasts_S2048x1x5_S2048x5 : S2048x1x5.ShapeCasts S2048x5
  inb_S1x512x5_S1x512x5_0_0_0 : ∀ a, (![0, 0, 0] : Fin 3 → Nat) a + S1x512x5.size a ≤ S1x512x5.size a
  h_S1x512x5 : 0 < S1x512x5.numel
  shapeCasts_S1x512x5_S512x5 : S1x512x5.ShapeCasts S512x5
  slices_S2048x5_o0_0_S2048x1 : S2048x5.Slices ![0, 0] S2048x1
  slices_S512x5_o0_0_S512x1 : S512x5.Slices ![0, 0] S512x1
  shapeCasts_S512x1_S512 : S512x1.ShapeCasts S512
  shapeCasts_S512_S1x512 : S512.ShapeCasts S1x512
  broadcasts_S2048x1_S2048x512 : S2048x1.Broadcasts S2048x512
  broadcasts_S1x512_S2048x512 : S1x512.Broadcasts S2048x512
  slices_S2048x5_o0_1_S2048x1 : S2048x5.Slices ![0, 1] S2048x1
  slices_S512x5_o0_1_S512x1 : S512x5.Slices ![0, 1] S512x1
  slices_S2048x5_o0_2_S2048x1 : S2048x5.Slices ![0, 2] S2048x1
  slices_S512x5_o0_2_S512x1 : S512x5.Slices ![0, 2] S512x1
  slices_S2048x5_o0_3_S2048x1 : S2048x5.Slices ![0, 3] S2048x1
  slices_S512x5_o0_3_S512x1 : S512x5.Slices ![0, 3] S512x1
  slices_S2048x5_o0_4_S2048x1 : S2048x5.Slices ![0, 4] S2048x1
  slices_S512x5_o0_4_S512x1 : S512x5.Slices ![0, 4] S512x1
  bitsLt_bf16_f32 : FTy.bits .bf16 < FTy.bits .f32
  inb_S512x2048_S512x2048_0_0 : ∀ a, (![0, 0] : Fin 2 → Nat) a + S512x2048.size a ≤ S512x2048.size a
  h_S512x2048 : 0 < S512x2048.numel
  inb_S512_S512_0 : ∀ a, (![0] : Fin 1 → Nat) a + S512.size a ≤ S512.size a
  h_S512 : 0 < S512.numel
  broadcasts_S1x512_S512x512 : S1x512.Broadcasts S512x512
  inb_S512x512_S512x512_0_0 : ∀ a, (![0, 0] : Fin 2 → Nat) a + S512x512.size a ≤ S512x512.size a
  h_S512x512 : 0 < S512x512.numel
  dot_S512x2048_S2048x512_S512x512_1_0_0_1_n_n_wf : DotDims.WF S512x2048 S2048x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S4096x2048.size a
  hwx0_0 : ∀ i : grid0.Coords, EltTy.bits .f32 = 32 ∨ (Rect.block (s := S4096x2048) S512x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x1x5.size a ≤ S2048x1x5.size a
  hwx0_1 : ∀ i : grid0.Coords, EltTy.bits .f32 = 32 ∨ (Rect.block (s := S2048x1x5) S2048x1x5.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x5.size a ≤ S1x8192x5.size a
  hwx0_2 : ∀ i : grid0.Coords, EltTy.bits .f32 = 32 ∨ (Rect.block (s := S1x8192x5) S1x512x5.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x1x5.size a ≤ S2048x1x5.size a
  hwx0_3 : ∀ i : grid0.Coords, EltTy.bits .f32 = 32 ∨ (Rect.block (s := S2048x1x5) S2048x1x5.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x5.size a ≤ S1x8192x5.size a
  hwx0_4 : ∀ i : grid0.Coords, EltTy.bits .f32 = 32 ∨ (Rect.block (s := S1x8192x5) S1x512x5.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512.size a ≤ S8192.size a
  hwx0_5 : ∀ i : grid0.Coords, EltTy.bits .f32 = 32 ∨ (Rect.block (s := S8192) S512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x512.size a ≤ S4096x8192.size a
  hwx0_6 : ∀ i : grid0.Coords, EltTy.bits .f32 = 32 ∨ (Rect.block (s := S4096x8192) S512x512.size (cc0_transform_6 i) (hinb0_6 i)).WholeWords (EltTy.packing .f32)

variable [Facts₀]

def dot_S512x2048_S2048x512_S512x512_1_0_0_1_n_n : DotDims S512x2048 S2048x512 S512x512 where
  lhsContracting := [1]
  rhsContracting := [0]
  lhsNonContracting := [0]
  rhsNonContracting := [1]
  lhsBatch := []
  rhsBatch := []
  wf := dot_S512x2048_S2048x512_S512x512_1_0_0_1_n_n_wf

abbrev win0_0 : Pipeline.Window sig grid0 :=
  Pipeline.Window.ofSpec (Memref.whole main_arg0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S2048x1x5.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S1x512x5.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S2048x1x5.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S1x512x5.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S512.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0) S512x512.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S4096x2048 : Shape := ⟨2, ![4096, 2048]⟩
abbrev S2048x1x5 : Shape := ⟨3, ![2048, 1, 5]⟩
abbrev S1x8192x5 : Shape := ⟨3, ![1, 8192, 5]⟩
abbrev S8192 : Shape := ⟨1, ![8192]⟩
abbrev S2048x8192x5 : Shape := ⟨3, ![2048, 8192, 5]⟩
abbrev S_ : Shape := ⟨0, ![]⟩
abbrev S2048x8192 : Shape := ⟨2, ![2048, 8192]⟩
abbrev S4096x8192 : Shape := ⟨2, ![4096, 8192]⟩
abbrev S1x8192 : Shape := ⟨2, ![1, 8192]⟩

abbrev nBuf : Space → Nat
  | .hbm => 25
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x1x5, .f32⟩
  | .hbm, ⟨2, _⟩ => ⟨S1x8192x5, .f32⟩
  | .hbm, ⟨3, _⟩ => ⟨S2048x1x5, .f32⟩
  | .hbm, ⟨4, _⟩ => ⟨S1x8192x5, .f32⟩
  | .hbm, ⟨5, _⟩ => ⟨S8192, .f32⟩
  | .hbm, ⟨6, _⟩ => ⟨S2048x8192x5, .f32⟩
  | .hbm, ⟨7, _⟩ => ⟨S2048x8192x5, .f32⟩
  | .hbm, ⟨8, _⟩ => ⟨S2048x8192x5, .f32⟩
  | .hbm, ⟨9, _⟩ => ⟨S2048x8192x5, .f32⟩
  | .hbm, ⟨10, _⟩ => ⟨S_, .f32⟩
  | .hbm, ⟨11, _⟩ => ⟨S2048x8192, .f32⟩
  | .hbm, ⟨12, _⟩ => ⟨S2048x8192, .f32⟩
  | .hbm, ⟨13, _⟩ => ⟨S2048x8192x5, .f32⟩
  | .hbm, ⟨14, _⟩ => ⟨S2048x8192x5, .f32⟩
  | .hbm, ⟨15, _⟩ => ⟨S2048x8192x5, .f32⟩
  | .hbm, ⟨16, _⟩ => ⟨S2048x8192x5, .f32⟩
  | .hbm, ⟨17, _⟩ => ⟨S_, .f32⟩
  | .hbm, ⟨18, _⟩ => ⟨S2048x8192, .f32⟩
  | .hbm, ⟨19, _⟩ => ⟨S2048x8192, .f32⟩
  | .hbm, ⟨20, _⟩ => ⟨S2048x8192, .f32⟩
  | .hbm, ⟨21, _⟩ => ⟨S4096x8192, .f32⟩
  | .hbm, ⟨22, _⟩ => ⟨S1x8192, .f32⟩
  | .hbm, ⟨23, _⟩ => ⟨S4096x8192, .f32⟩
  | .hbm, ⟨24, _⟩ => ⟨S4096x8192, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩

abbrev nD : Nat := 1
abbrev τ : Topo := Topo.v7x

variable {F : FTy → Type} [FloatOps F]

class Facts₀ : Prop where
  bcast_S2048x1x5_S2048x8192x5_0_1_2 : S2048x1x5.BroadcastsInDim S2048x8192x5 (![0, 1, 2] : Fin 3 → Fin S2048x8192x5.rank)
  bcast_S1x8192x5_S2048x8192x5_0_1_2 : S1x8192x5.BroadcastsInDim S2048x8192x5 (![0, 1, 2] : Fin 3 → Fin S2048x8192x5.rank)
  reducesTo_S2048x8192x5_S2048x8192_d2 : S2048x8192x5.ReducesTo [2] S2048x8192
  h_S_ : 0 < S_.numel
  bcast_S8192_S1x8192_1 : S8192.BroadcastsInDim S1x8192 (![1] : Fin 1 → Fin S1x8192.rank)
  bcast_S1x8192_S4096x8192_0_1 : S1x8192.BroadcastsInDim S4096x8192 (![0, 1] : Fin 2 → Fin S4096x8192.rank)
  dot_S4096x2048_S2048x8192_S4096x8192_1_0_0_1_n_n_wf : DotDims.WF S4096x2048 S2048x8192 S4096x8192 [1] [0] [0] [1] [] []

variable [Facts₀]

def dot_S4096x2048_S2048x8192_S4096x8192_1_0_0_1_n_n : DotDims S4096x2048 S2048x8192 S4096x8192 where
  lhsContracting := [1]
  rhsContracting := [0]
  lhsNonContracting := [0]
  rhsNonContracting := [1]
  lhsBatch := []
  rhsBatch := []
  wf := dot_S4096x2048_S2048x8192_S4096x8192_1_0_0_1_n_n_wf

class Facts : Prop extends Facts₀ where

variable [Facts]
-- ==== Proof.DistanceLayer.lean ====
/-
  The function both programs compute, stated once, with no program in sight.

  Inputs: a batch `x : [R, K]`, two families of points of five coordinates — `a : [K, 1, 5]` (one point per input
  unit) and `b : [1, N, 5]` (one point per output unit) — the same two families at their initial positions
  `a0`, `b0`, and a bias `[N]`. The weight joining input unit `k` to output unit `n` is the Euclidean distance
  between their points now minus the distance between their initial points,
      w k n = ‖a k − b n‖ − ‖a0 k − b0 n‖,
  and the layer is `(x · w) p n + bias n = (∑ k, x p k · w k n) + bias n`.
  Everything is read on the extended reals: a difference, a product and a sum are EReal's, the square root is the
  ideal instance's.

  `entry` is stated for any extents, because the kernel computes a 512 × 512 block of the result from blocks of its
  arguments and the reference computes the whole 4096 × 8192 array: `entry_congr` says an entry depends only on row
  `p` of `x`, on the points of the input units, on the two points of output unit `n` and on `bias n`, which is what
  lets a block's entry be read as the whole array's.
-/
import Idealize.ShloMosaic.PureOps.Ideal
import Idealize.ShloMosaic.PureOps.Ideal.Laws
import Idealize.ShloMosaic.Lib.ValueIdx

noncomputable section

namespace Cert.DistanceLayer

open Idealize.ShloMosaic Idealize.ShloMosaic.ValueIdx

/-- The Euclidean distance of two points given by their five coordinates: the root of the sum of the squared
    coordinate differences. -/
def dist5 (u v : Fin 5 → EReal) : EReal := Ideal.sqrt (∑ d : Fin 5, (u d - v d) * (u d - v d))

/-- A sum of five terms accumulated from zero, one term after the other, is the sum over the five coordinates:
    only the associativity of `+` and `0 + s = s`, so it holds at the infinities too. -/
theorem running_sum5 (f : Fin 5 → EReal) : 0 + f 0 + f 1 + f 2 + f 3 + f 4 = ∑ d : Fin 5, f d := by
  rw [Fin.sum_univ_five, zero_add]

/-- The weight joining input unit `k` to output unit `n`: the distance between their points minus the distance
    between their initial points. -/
def weight {K N : Nat} (a : FVec Ideal ⟨3, ![K, 1, 5]⟩ .f32) (b : FVec Ideal ⟨3, ![1, N, 5]⟩ .f32)
    (a0 : FVec Ideal ⟨3, ![K, 1, 5]⟩ .f32) (b0 : FVec Ideal ⟨3, ![1, N, 5]⟩ .f32) (k : Fin K) (n : Fin N) : EReal :=
  dist5 (fun d => a (ix3 k (0 : Fin 1) d)) (fun d => b (ix3 (0 : Fin 1) n d))
    - dist5 (fun d => a0 (ix3 k (0 : Fin 1) d)) (fun d => b0 (ix3 (0 : Fin 1) n d))

/-- Entry `(p, n)` of the layer: row `p` of the batch against column `n` of the weights, plus the bias of `n`. -/
def entry {R K N : Nat} (x : FVec Ideal ⟨2, ![R, K]⟩ .f32) (a : FVec Ideal ⟨3, ![K, 1, 5]⟩ .f32)
    (b : FVec Ideal ⟨3, ![1, N, 5]⟩ .f32) (a0 : FVec Ideal ⟨3, ![K, 1, 5]⟩ .f32) (b0 : FVec Ideal ⟨3, ![1, N, 5]⟩ .f32)
    (bias : FVec Ideal ⟨1, ![N]⟩ .f32) (p : Fin R) (n : Fin N) : EReal :=
  (∑ k : Fin K, x (ix2 p k) * weight a b a0 b0 k n) + bias (ix1 n)

/-- An entry depends only on row `p` of the batch, on the input units' points, on output unit `n`'s two points and
    on its bias: two sets of arrays, of any extents, that agree there have the same entry. -/
theorem entry_congr {R K N R' N' : Nat}
    (x : FVec Ideal ⟨2, ![R, K]⟩ .f32) (a : FVec Ideal ⟨3, ![K, 1, 5]⟩ .f32) (b : FVec Ideal ⟨3, ![1, N, 5]⟩ .f32)
    (a0 : FVec Ideal ⟨3, ![K, 1, 5]⟩ .f32) (b0 : FVec Ideal ⟨3, ![1, N, 5]⟩ .f32) (bias : FVec Ideal ⟨1, ![N]⟩ .f32)
    (x' : FVec Ideal ⟨2, ![R', K]⟩ .f32) (a' : FVec Ideal ⟨3, ![K, 1, 5]⟩ .f32) (b' : FVec Ideal ⟨3, ![1, N', 5]⟩ .f32)
    (a0' : FVec Ideal ⟨3, ![K, 1, 5]⟩ .f32) (b0' : FVec Ideal ⟨3, ![1, N', 5]⟩ .f32) (bias' : FVec Ideal ⟨1, ![N']⟩ .f32)
    (p : Fin R) (n : Fin N) (p' : Fin R') (n' : Fin N')
    (hx : ∀ k : Fin K, x (ix2 p k) = x' (ix2 p' k))
    (ha : ∀ (k : Fin K) (d : Fin 5), a (ix3 k (0 : Fin 1) d) = a' (ix3 k (0 : Fin 1) d))
    (hb : ∀ d : Fin 5, b (ix3 (0 : Fin 1) n d) = b' (ix3 (0 : Fin 1) n' d))
    (ha0 : ∀ (k : Fin K) (d : Fin 5), a0 (ix3 k (0 : Fin 1) d) = a0' (ix3 k (0 : Fin 1) d))
    (hb0 : ∀ d : Fin 5, b0 (ix3 (0 : Fin 1) n d) = b0' (ix3 (0 : Fin 1) n' d))
    (hbias : bias (ix1 n) = bias' (ix1 n')) :
    entry x a b a0 b0 bias p n = entry x' a' b' a0' b0' bias' p' n' := by
  unfold entry
  rw [hbias]
  refine congrArg (· + bias' (ix1 n')) (Finset.sum_congr rfl fun k _ => ?_)
  rw [hx k]
  refine congrArg (x' (ix2 p' k) * ·) ?_
  unfold weight
  rw [funext (ha k), funext hb, funext (ha0 k), funext hb0]

/-- The whole layer at the program's extents: a batch of 4096 rows of 2048 inputs onto 8192 output units. -/
def layer (x : FVec Ideal ⟨2, ![4096, 2048]⟩ .f32) (a : FVec Ideal ⟨3, ![2048, 1, 5]⟩ .f32)
    (b : FVec Ideal ⟨3, ![1, 8192, 5]⟩ .f32) (a0 : FVec Ideal ⟨3, ![2048, 1, 5]⟩ .f32)
    (b0 : FVec Ideal ⟨3, ![1, 8192, 5]⟩ .f32) (bias : FVec Ideal ⟨1, ![8192]⟩ .f32) :
    FVec Ideal ⟨2, ![4096, 8192]⟩ .f32 :=
  fun i => entry x a b a0 b0 bias ⟨(i 0).val, idx2_lt0 i⟩ ⟨(i 1).val, idx2_lt1 i⟩

/-- The layer read at an index given by its two coordinates. -/
theorem layer_ix2 (x : FVec Ideal ⟨2, ![4096, 2048]⟩ .f32) (a : FVec Ideal ⟨3, ![2048, 1, 5]⟩ .f32)
    (b : FVec Ideal ⟨3, ![1, 8192, 5]⟩ .f32) (a0 : FVec Ideal ⟨3, ![2048, 1, 5]⟩ .f32)
    (b0 : FVec Ideal ⟨3, ![1, 8192, 5]⟩ .f32) (bias : FVec Ideal ⟨1, ![8192]⟩ .f32) (p : Fin 4096) (n : Fin 8192) :
    layer x a b a0 b0 bias (ix2 p n) = entry x a b a0 b0 bias p n := rfl

end Cert.DistanceLayer

end
-- ==== Proof.RefIsLayer.lean ====
/-
  The reference program computes the layer of DistanceLayer.lean.

  Its nineteen host operations build, for the present points and for the initial ones, the three-axis array
  `[2048, 8192, 5]` of all coordinate differences (two broadcasts and a subtraction), square it, sum it over the
  last axis from zero, and take the root: entry `(k, n)` of each is the distance between input unit `k`'s point
  and output unit `n`'s. Their difference is the weight matrix; a matrix product with the batch and a bias
  repeated down the rows finish the layer. Read at an index through the generated read-at-an-index lemmas this is
  `entry`, term for term: the only algebra is `0 + s = s` for the sum's initial value.
-/
import proofs.«145144_j43748536877517_1_alg».proof.Proof.Gen.ReferenceIdeal.Read
import proofs.«145144_j43748536877517_1_alg».proof.Proof.DistanceLayer

noncomputable section

namespace Cert.ReferenceIdeal.RefValue

open Cert.ReferenceIdeal Cert.ReferenceIdeal.Gen Cert.ReferenceIdeal.Read
open Idealize.ShloMosaic Idealize.ShloMosaic.ValueIdx Cert.DistanceLayer

/-! ## Where each stage reads its operands -/

/-- Entry `(k, n, d)` of the broadcast input-unit points is coordinate `d` of unit `k`'s point. -/
theorem in_point_idx (k : Fin 2048) (n : Fin 8192) (d : Fin 5) :
    idx_main_v0 (idx_main_v4 (ix2 k n) d) = ix3 k (0 : Fin 1) d :=
  funext fun a => Fin.ext (by match a with | ⟨0, _⟩ => rfl | ⟨1, _⟩ => rfl | ⟨2, _⟩ => rfl)

/-- Entry `(k, n, d)` of the broadcast output-unit points is coordinate `d` of unit `n`'s point. -/
theorem out_point_idx (k : Fin 2048) (n : Fin 8192) (d : Fin 5) :
    idx_main_v1 (idx_main_v4 (ix2 k n) d) = ix3 (0 : Fin 1) n d :=
  funext fun a => Fin.ext (by match a with | ⟨0, _⟩ => rfl | ⟨1, _⟩ => rfl | ⟨2, _⟩ => rfl)

/-- The same two reads in the chain of the initial points. -/
theorem in_point_idx0 (k : Fin 2048) (n : Fin 8192) (d : Fin 5) :
    idx_main_v6 (idx_main_v10 (ix2 k n) d) = ix3 k (0 : Fin 1) d :=
  funext fun a => Fin.ext (by match a with | ⟨0, _⟩ => rfl | ⟨1, _⟩ => rfl | ⟨2, _⟩ => rfl)

theorem out_point_idx0 (k : Fin 2048) (n : Fin 8192) (d : Fin 5) :
    idx_main_v7 (idx_main_v10 (ix2 k n) d) = ix3 (0 : Fin 1) n d :=
  funext fun a => Fin.ext (by match a with | ⟨0, _⟩ => rfl | ⟨1, _⟩ => rfl | ⟨2, _⟩ => rfl)

/-! ## The two distance matrices -/

/-- One squared coordinate difference of the present points. -/
theorem sq_diff (a : (⟨S2048x1x5, .f32⟩ : BufTy).Contents (Elt Ideal)) (b : (⟨S1x8192x5, .f32⟩ : BufTy).Contents (Elt Ideal))
    (k : Fin 2048) (n : Fin 8192) (d : Fin 5) :
    val_main_v3 (F := Ideal) a b (idx_main_v4 (ix2 k n) d)
      = (a (ix3 k (0 : Fin 1) d) - b (ix3 (0 : Fin 1) n d)) * (a (ix3 k (0 : Fin 1) d) - b (ix3 (0 : Fin 1) n d)) := by
  rw [val_main_v3_apply, val_main_v2_apply, val_main_v0_apply, val_main_v1_apply, in_point_idx, out_point_idx]
  rfl

/-- One squared coordinate difference of the initial points. -/
theorem sq_diff0 (a : (⟨S2048x1x5, .f32⟩ : BufTy).Contents (Elt Ideal)) (b : (⟨S1x8192x5, .f32⟩ : BufTy).Contents (Elt Ideal))
    (k : Fin 2048) (n : Fin 8192) (d : Fin 5) :
    val_main_v9 (F := Ideal) a b (idx_main_v10 (ix2 k n) d)
      = (a (ix3 k (0 : Fin 1) d) - b (ix3 (0 : Fin 1) n d)) * (a (ix3 k (0 : Fin 1) d) - b (ix3 (0 : Fin 1) n d)) := by
  rw [val_main_v9_apply, val_main_v8_apply, val_main_v6_apply, val_main_v7_apply, in_point_idx0, out_point_idx0]
  rfl

/-- Entry `(k, n)` of the present distance matrix is the distance between unit `k`'s and unit `n`'s points: the
    host's sum starts from the zero word, and `0 + s = s`. -/
theorem dist_now (a : (⟨S2048x1x5, .f32⟩ : BufTy).Contents (Elt Ideal)) (b : (⟨S1x8192x5, .f32⟩ : BufTy).Contents (Elt Ideal))
    (k : Fin 2048) (n : Fin 8192) :
    val_main_v5 (F := Ideal) a b (ix2 k n)
      = dist5 (fun d => a (ix3 k (0 : Fin 1) d)) (fun d => b (ix3 (0 : Fin 1) n d)) := by
  rw [val_main_v5_apply, val_main_v4_apply, Ideal.hostUnary_sqrt_def]
  unfold dist5
  refine congrArg Ideal.sqrt ?_
  rw [val_main_cst_apply, Ideal.ofBits_def, Ideal.ofBits_zero_f32, zero_add]
  exact Finset.sum_congr rfl fun d _ => sq_diff a b k n d

/-- The same for the initial points. -/
theorem dist_init (a : (⟨S2048x1x5, .f32⟩ : BufTy).Contents (Elt Ideal)) (b : (⟨S1x8192x5, .f32⟩ : BufTy).Contents (Elt Ideal))
    (k : Fin 2048) (n : Fin 8192) :
    val_main_v11 (F := Ideal) a b (ix2 k n)
      = dist5 (fun d => a (ix3 k (0 : Fin 1) d)) (fun d => b (ix3 (0 : Fin 1) n d)) := by
  rw [val_main_v11_apply, val_main_v10_apply, Ideal.hostUnary_sqrt_def]
  unfold dist5
  refine congrArg Ideal.sqrt ?_
  rw [val_main_cst_0_apply, Ideal.ofBits_def, Ideal.ofBits_zero_f32, zero_add]
  exact Finset.sum_congr rfl fun d _ => sq_diff0 a b k n d

/-! ## The weights, the product, the bias -/

/-- Entry `(k, n)` of the reference's weight matrix is `weight`. The reference's arguments 3 and 4 are the present
    points, 1 and 2 the initial ones. -/
theorem ref_weight (x1 : (⟨S2048x1x5, .f32⟩ : BufTy).Contents (Elt Ideal)) (x2 : (⟨S1x8192x5, .f32⟩ : BufTy).Contents (Elt Ideal))
    (x3 : (⟨S2048x1x5, .f32⟩ : BufTy).Contents (Elt Ideal)) (x4 : (⟨S1x8192x5, .f32⟩ : BufTy).Contents (Elt Ideal))
    (k : Fin 2048) (n : Fin 8192) :
    val_main_v12 (F := Ideal) x1 x2 x3 x4 (ix2 k n) = weight x3 x4 x1 x2 k n := by
  rw [val_main_v12_apply, dist_now, dist_init]
  rfl

/-- The reference's result at `(p, n)` is the layer's entry. -/
theorem ref_entry (x0 : (⟨S4096x2048, .f32⟩ : BufTy).Contents (Elt Ideal))
    (x1 : (⟨S2048x1x5, .f32⟩ : BufTy).Contents (Elt Ideal)) (x2 : (⟨S1x8192x5, .f32⟩ : BufTy).Contents (Elt Ideal))
    (x3 : (⟨S2048x1x5, .f32⟩ : BufTy).Contents (Elt Ideal)) (x4 : (⟨S1x8192x5, .f32⟩ : BufTy).Contents (Elt Ideal))
    (x5 : (⟨S8192, .f32⟩ : BufTy).Contents (Elt Ideal)) (p : Fin 4096) (n : Fin 8192) :
    val_main_v16 (F := Ideal) x0 x1 x2 x3 x4 x5 (ix2 p n) = entry x0 x3 x4 x1 x2 x5 p n := by
  have hb : idx_main_v14 (idx_main_v15 (ix2 p n)) = ix1 n :=
    funext fun a => Fin.ext (by match a with | ⟨0, _⟩ => rfl)
  rw [val_main_v16_apply, val_main_v13_apply, val_main_v15_apply, val_main_v14_apply, hb, Ideal.addf_def]
  unfold entry
  refine congrArg (· + x5 (ix1 n)) (Finset.sum_congr rfl fun k _ => ?_)
  have hl : lidx_main_v13 (ix2 p n) k = ix2 p k :=
    funext fun a => Fin.ext (by match a with | ⟨0, _⟩ => rfl | ⟨1, _⟩ => rfl)
  have hr : ridx_main_v13 (ix2 p n) k = ix2 k n :=
    funext fun a => Fin.ext (by match a with | ⟨0, _⟩ => rfl | ⟨1, _⟩ => rfl)
  rw [hl, hr, ref_weight]

/-- The reference's last stage, as a whole array, is the layer. -/
theorem ref_is_layer (x0 : (⟨S4096x2048, .f32⟩ : BufTy).Contents (Elt Ideal))
    (x1 : (⟨S2048x1x5, .f32⟩ : BufTy).Contents (Elt Ideal)) (x2 : (⟨S1x8192x5, .f32⟩ : BufTy).Contents (Elt Ideal))
    (x3 : (⟨S2048x1x5, .f32⟩ : BufTy).Contents (Elt Ideal)) (x4 : (⟨S1x8192x5, .f32⟩ : BufTy).Contents (Elt Ideal))
    (x5 : (⟨S8192, .f32⟩ : BufTy).Contents (Elt Ideal)) :
    val_main_v16 (F := Ideal) x0 x1 x2 x3 x4 x5 = layer x0 x3 x4 x1 x2 x5 := by
  funext i
  obtain ⟨p, n, rfl⟩ : ∃ (p : Fin 4096) (n : Fin 8192), i = ix2 p n := ⟨i 0, i 1, eq_ix2 i⟩
  exact ref_entry x0 x1 x2 x3 x4 x5 p n

end Cert.ReferenceIdeal.RefValue

end
-- ==== Proof.LibPairReads.lean ====
/-
  Layout chains read at an index, for any extents: what a kernel writes when it sets every row of one matrix
  against every row of another without ever building the three-axis array of all pairs.

  Given `u : [K, C]` and `v : [N, C]`, the pair array `[K, N]` of column `o` is built from
    • column `o` of `u`, a `[K, 1]` slice, broadcast along the second axis:   entry `(k, n)` is `u (k, o)`;
    • column `o` of `v`, a `[N, 1]` slice, cast to `[N]`, cast to the row `[1, N]`, broadcast along the first
      axis:                                                                  entry `(k, n)` is `v (n, o)`.
  Also here: a `[K, 1, C]` array cast to `[K, C]` (a middle unit axis dropped), a column `[a, 1]` cast to the vector
  `[a]`, a column broadcast to `[a, b]`, and a vector laid as a row and repeated down the rows (a bias added to every
  row of a matrix). Each is one or two steps over the library's reads of a slice, a shape cast and a broadcast at
  an index given by coordinates.
-/
import Idealize.ShloMosaic.Lib.Pipeline.Value
import Idealize.ShloMosaic.Lib.ValueIdx
import Idealize.ShloMosaic.Lib.ValueLayout

namespace Cert.LibPairReads

open Idealize.ShloMosaic Idealize.ShloMosaic.ValueIdx

variable {α : Type}

/-- An `[a, 1, b]` array cast to `[a, b]` reads, at `(i, j)`, the operand at `(i, 0, j)`: the unit axis in the middle
    contributes nothing to the row-major position. -/
theorem shapeCast_a1b_ab_apply {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

/-- A column `[a, 1]` cast to the vector `[a]` reads, at `i`, the operand at `(i, 0)`. -/
theorem shapeCast_a1_a_apply {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A column `[a, 1]` broadcast to `[a, b]` reads, at `(p, c)`, the column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Column `o` of a `[K, C]` matrix, repeated along the second axis of a `[K, N]` array: entry `(k, n)` is the
    matrix at `(k, o)`. -/
theorem column_spread_apply {K C N : ℕ} (o : ℕ) (u : (⟨2, ![K, C]⟩ : Shape).Idx → α)
    (hs : (⟨2, ![K, C]⟩ : Shape).Slices ![0, o] ⟨2, ![K, 1]⟩)
    (hb : (⟨2, ![K, 1]⟩ : Shape).Broadcasts ⟨2, ![K, N]⟩)
    (k : Fin K) (n : Fin N) (d : Fin C) (hd : d.val = o) :
    broadcastTo ⟨2, ![K, N]⟩ (extractStridedSlice ⟨2, ![K, 1]⟩ ![0, o] u hs) hb (ix2 k n) = u (ix2 k d) :=
  (broadcastTo_a1_ab_apply _ hb k n).trans
    (slice2_axis1_apply o u hs k (0 : Fin 1) d (by rw [hd]; rfl))

/-- Column `o` of an `[N, C]` matrix, laid as a row and repeated down the first axis of a `[K, N]` array: entry
    `(k, n)` is the matrix at `(n, o)`. -/
theorem column_as_row_spread_apply {K C N : ℕ} (o : ℕ) (v : (⟨2, ![N, C]⟩ : Shape).Idx → α)
    (hs : (⟨2, ![N, C]⟩ : Shape).Slices ![0, o] ⟨2, ![N, 1]⟩)
    (h1 : (⟨2, ![N, 1]⟩ : Shape).ShapeCasts ⟨1, ![N]⟩) (h2 : (⟨1, ![N]⟩ : Shape).ShapeCasts ⟨2, ![1, N]⟩)
    (hb : (⟨2, ![1, N]⟩ : Shape).Broadcasts ⟨2, ![K, N]⟩)
    (k : Fin K) (n : Fin N) (d : Fin C) (hd : d.val = o) :
    broadcastTo ⟨2, ![K, N]⟩
        (shapeCast ⟨2, ![1, N]⟩ (shapeCast ⟨1, ![N]⟩ (extractStridedSlice ⟨2, ![N, 1]⟩ ![0, o] v hs) h1) h2) hb (ix2 k n)
      = v (ix2 n d) :=
  (broadcastTo_1b_ab_apply _ hb k n).trans
    ((shapeCast_a_1a_apply _ h2 (0 : Fin 1) n).trans
      ((shapeCast_a1_a_apply _ h1 n).trans
        (slice2_axis1_apply o v hs n (0 : Fin 1) d (by rw [hd]; rfl))))

/-- A vector `[N]` laid as a row and repeated down the rows of an `[R, N]` array: entry `(p, n)` is the vector at
    `n`. -/
theorem row_spread_apply {R N : ℕ} (b : (⟨1, ![N]⟩ : Shape).Idx → α)
    (h1 : (⟨1, ![N]⟩ : Shape).ShapeCasts ⟨2, ![1, N]⟩) (hb : (⟨2, ![1, N]⟩ : Shape).Broadcasts ⟨2, ![R, N]⟩)
    (p : Fin R) (n : Fin N) :
    broadcastTo ⟨2, ![R, N]⟩ (shapeCast ⟨2, ![1, N]⟩ b h1) hb (ix2 p n) = b (ix1 n) :=
  (broadcastTo_1b_ab_apply _ hb p n).trans (shapeCast_a_1a_apply _ h1 (0 : Fin 1) n)

end Cert.LibPairReads
-- ==== Proof.BodyEntry.lean ====
/-
  What one grid point of the kernel leaves in its 512 × 512 output block, entry by entry.

  The body loads the point's block of the batch `x : [512, 2048]`, the input units' points `a, a0 : [2048, 1, 5]`
  (whole), the point's 512 output units' points `b, b0 : [1, 512, 5]` and their biases `[512]`. It drops the unit
  axes, and for each of the five coordinates sets column `d` of the input points against column `d` of the output
  points — a column repeated along the rows' other axis, a column laid as a row and repeated — subtracts, squares,
  and adds onto a running sum that starts at zero; the roots of the two running sums are subtracted, giving the
  `[2048, 512]` block of weights; the matrix unit multiplies the batch block by it into a zero accumulator, and the
  bias row is added. (The roundings to bf16 on the way into the matrix unit are the identity on extended reals.)

  Read at `(p, q)` that is `DistanceLayer.entry` of the blocks: the running sums are `∑ d` by associativity and
  `0 + s = s` alone, and the matrix product into zero is the plain sum over the contracted axis.
-/
import proofs.«145144_j43748536877517_1_alg».proof.Proof.Gen.KernelIdeal.Frame
import proofs.«145144_j43748536877517_1_alg».proof.Proof.DistanceLayer
import proofs.«145144_j43748536877517_1_alg».proof.Proof.LibPairReads
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Body

open Cert.KernelIdeal Cert.KernelIdeal.Gen
open Idealize.ShloMosaic Idealize.ShloMosaic.ValueIdx Cert.DistanceLayer Cert.LibPairReads

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- The square root of a vector, read at an index. -/
theorem sqrt_apply {s : Shape} {φ : FTy} (v : FVec Ideal s φ) (i : s.Idx) : sqrt v i = Ideal.sqrt (v i) := rfl

/-! ## The points with their unit axes dropped -/

/-- The input units' points as a `[2048, 5]` matrix. -/
theorem in_points (a : Vec Ideal S2048x1x5 .f32) (k : Fin 2048) (d : Fin 5) :
    k0_pay2 a (ix2 k d) = a (ix3 k (0 : Fin 1) d) := by
  unfold k0_pay2
  exact shapeCast_a1b_ab_apply a _ k d

/-- The block's output units' points as a `[512, 5]` matrix. -/
theorem out_points (b : Vec Ideal S1x512x5 .f32) (q : Fin 512) (d : Fin 5) :
    k0_pay3 b (ix2 q d) = b (ix3 (0 : Fin 1) q d) := by
  unfold k0_pay3
  exact shapeCast_1ab_ab_apply b _ q d

/-- The same for the initial points. -/
theorem in_points0 (a : Vec Ideal S2048x1x5 .f32) (k : Fin 2048) (d : Fin 5) :
    k0_pay4 a (ix2 k d) = a (ix3 k (0 : Fin 1) d) := by
  unfold k0_pay4
  exact shapeCast_a1b_ab_apply a _ k d

theorem out_points0 (b : Vec Ideal S1x512x5 .f32) (q : Fin 512) (d : Fin 5) :
    k0_pay5 b (ix2 q d) = b (ix3 (0 : Fin 1) q d) := by
  unfold k0_pay5
  exact shapeCast_1ab_ab_apply b _ q d

/-! ## One coordinate of every pair at once -/

/-- The `[2048, 512]` array of differences of coordinate `o`: column `o` of the input points repeated along the
    output axis, minus column `o` of the output points laid as a row and repeated along the input axis. Entry
    `(k, q)` is the difference of coordinate `o` between input unit `k`'s point and output unit `q`'s. -/
theorem pair_diff (o : ℕ) (u : FVec Ideal S2048x5 .f32) (v : FVec Ideal S512x5 .f32)
    (hs1 : S2048x5.Slices ![0, o] S2048x1) (hs2 : S512x5.Slices ![0, o] S512x1)
    (hc1 : S512x1.ShapeCasts S512) (hc2 : S512.ShapeCasts S1x512)
    (hb1 : S2048x1.Broadcasts S2048x512) (hb2 : S1x512.Broadcasts S2048x512)
    (k : Fin 2048) (q : Fin 512) (d : Fin 5) (hd : d.val = o) :
    subf (broadcastTo S2048x512 (extractStridedSlice S2048x1 ![0, o] u hs1) hb1)
        (broadcastTo S2048x512 (shapeCast S1x512 (shapeCast S512 (extractStridedSlice S512x1 ![0, o] v hs2) hc1) hc2) hb2)
        (ix2 k q)
      = u (ix2 k d) - v (ix2 q d) :=
  (subf_apply _ _ _).trans
    (congrArg₂ (· - ·) (column_spread_apply o u hs1 hb1 k q d hd)
      (column_as_row_spread_apply o v hs2 hc1 hc2 hb2 k q d hd))

/-- The same array squared. -/
theorem pair_sq (o : ℕ) (u : FVec Ideal S2048x5 .f32) (v : FVec Ideal S512x5 .f32)
    (hs1 : S2048x5.Slices ![0, o] S2048x1) (hs2 : S512x5.Slices ![0, o] S512x1)
    (hc1 : S512x1.ShapeCasts S512) (hc2 : S512.ShapeCasts S1x512)
    (hb1 : S2048x1.Broadcasts S2048x512) (hb2 : S1x512.Broadcasts S2048x512)
    (k : Fin 2048) (q : Fin 512) (d : Fin 5) (hd : d.val = o) :
    mulf
        (subf (broadcastTo S2048x512 (extractStridedSlice S2048x1 ![0, o] u hs1) hb1)
          (broadcastTo S2048x512 (shapeCast S1x512 (shapeCast S512 (extractStridedSlice S512x1 ![0, o] v hs2) hc1) hc2) hb2))
        (subf (broadcastTo S2048x512 (extractStridedSlice S2048x1 ![0, o] u hs1) hb1)
          (broadcastTo S2048x512 (shapeCast S1x512 (shapeCast S512 (extractStridedSlice S512x1 ![0, o] v hs2) hc1) hc2) hb2))
        (ix2 k q)
      = (u (ix2 k d) - v (ix2 q d)) * (u (ix2 k d) - v (ix2 q d)) :=
  (mulf_apply _ _ _).trans
    (congrArg₂ (· * ·) (pair_diff o u v hs1 hs2 hc1 hc2 hb1 hb2 k q d hd) (pair_diff o u v hs1 hs2 hc1 hc2 hb1 hb2 k q d hd))

/-! ## The running sums of squares -/

/-- The difference of coordinate 1 of the initial points, which the body carries from its first half to its second. -/
theorem init_diff1 (a0 : Vec Ideal S2048x1x5 .f32) (b0 : Vec Ideal S1x512x5 .f32) (k : Fin 2048) (q : Fin 512) :
    k0_pay8 a0 b0 (ix2 k q) = a0 (ix3 k (0 : Fin 1) 1) - b0 (ix3 (0 : Fin 1) q 1) := by
  unfold k0_pay8
  refine (pair_diff 1 (k0_pay4 a0) (k0_pay5 b0) _ _ _ _ _ _ k q 1 rfl).trans ?_
  rw [in_points0, out_points0]

/-- The initial points' running sum after coordinate 0: zero plus one square. -/
theorem init_sum0 (a0 : Vec Ideal S2048x1x5 .f32) (b0 : Vec Ideal S1x512x5 .f32) (k : Fin 2048) (q : Fin 512) :
    k0_pay6 a0 b0 (ix2 k q)
      = 0 + (a0 (ix3 k (0 : Fin 1) 0) - b0 (ix3 (0 : Fin 1) q 0)) * (a0 (ix3 k (0 : Fin 1) 0) - b0 (ix3 (0 : Fin 1) q 0)) := by
  unfold k0_pay6
  refine (addf_apply _ _ _).trans (congrArg₂ (· + ·) Ideal.ofBits_zero_f32 ?_)
  refine (pair_sq 0 (k0_pay4 a0) (k0_pay5 b0) _ _ _ _ _ _ k q 0 rfl).trans ?_
  rw [in_points0, out_points0]

/-- The present points' running sum after coordinates 0 and 1. -/
theorem now_sum01 (a : Vec Ideal S2048x1x5 .f32) (b : Vec Ideal S1x512x5 .f32) (k : Fin 2048) (q : Fin 512) :
    k0_pay7 a b (ix2 k q)
      = 0 + (a (ix3 k (0 : Fin 1) 0) - b (ix3 (0 : Fin 1) q 0)) * (a (ix3 k (0 : Fin 1) 0) - b (ix3 (0 : Fin 1) q 0))
          + (a (ix3 k (0 : Fin 1) 1) - b (ix3 (0 : Fin 1) q 1)) * (a (ix3 k (0 : Fin 1) 1) - b (ix3 (0 : Fin 1) q 1)) := by
  unfold k0_pay7
  refine (addf_apply _ _ _).trans (congrArg₂ (· + ·) ?_ ?_)
  · refine (addf_apply _ _ _).trans (congrArg₂ (· + ·) Ideal.ofBits_zero_f32 ?_)
    refine (pair_sq 0 (k0_pay2 a) (k0_pay3 b) _ _ _ _ _ _ k q 0 rfl).trans ?_
    rw [in_points, out_points]
  · refine (pair_sq 1 (k0_pay2 a) (k0_pay3 b) _ _ _ _ _ _ k q 1 rfl).trans ?_
    rw [in_points, out_points]

/-- The second half of the body, from whatever running sums and carried difference the first half hands it: three
    more squares onto each sum, the two roots, their difference (and a rounding that is the identity here). -/
theorem weight_tail (v1 : FVec Ideal S2048x5 .f32) (v3 : FVec Ideal S512x5 .f32) (v5 : FVec Ideal S2048x5 .f32)
    (v7 : FVec Ideal S512x5 .f32) (v27 v36 v43 : FVec Ideal S2048x512 .f32) (k : Fin 2048) (q : Fin 512) :
    k0_pay9 v1 v3 v5 v7 v27 v36 v43 (ix2 k q)
      = Ideal.sqrt (v36 (ix2 k q) + (v1 (ix2 k 2) - v3 (ix2 q 2)) * (v1 (ix2 k 2) - v3 (ix2 q 2))
            + (v1 (ix2 k 3) - v3 (ix2 q 3)) * (v1 (ix2 k 3) - v3 (ix2 q 3))
            + (v1 (ix2 k 4) - v3 (ix2 q 4)) * (v1 (ix2 k 4) - v3 (ix2 q 4)))
        - Ideal.sqrt (v27 (ix2 k q) + v43 (ix2 k q) * v43 (ix2 k q)
            + (v5 (ix2 k 2) - v7 (ix2 q 2)) * (v5 (ix2 k 2) - v7 (ix2 q 2))
            + (v5 (ix2 k 3) - v7 (ix2 q 3)) * (v5 (ix2 k 3) - v7 (ix2 q 3))
            + (v5 (ix2 k 4) - v7 (ix2 q 4)) * (v5 (ix2 k 4) - v7 (ix2 q 4))) := by
  unfold k0_pay9
  refine Eq.trans (truncf_apply _ _ _) (Eq.trans (subf_apply _ _ _) (congrArg₂ (· - ·) ?_ ?_))
  · refine (sqrt_apply _ _).trans (congrArg Ideal.sqrt ?_)
    refine (addf_apply _ _ _).trans (congrArg₂ (· + ·) ?_ (pair_sq 4 v1 v3 _ _ _ _ _ _ k q 4 rfl))
    refine (addf_apply _ _ _).trans (congrArg₂ (· + ·) ?_ (pair_sq 3 v1 v3 _ _ _ _ _ _ k q 3 rfl))
    exact (addf_apply _ _ _).trans (congrArg₂ (· + ·) rfl (pair_sq 2 v1 v3 _ _ _ _ _ _ k q 2 rfl))
  · refine (sqrt_apply _ _).trans (congrArg Ideal.sqrt ?_)
    refine (addf_apply _ _ _).trans (congrArg₂ (· + ·) ?_ (pair_sq 4 v5 v7 _ _ _ _ _ _ k q 4 rfl))
    refine (addf_apply _ _ _).trans (congrArg₂ (· + ·) ?_ (pair_sq 3 v5 v7 _ _ _ _ _ _ k q 3 rfl))
    refine (addf_apply _ _ _).trans (congrArg₂ (· + ·) ?_ (pair_sq 2 v5 v7 _ _ _ _ _ _ k q 2 rfl))
    exact (addf_apply _ _ _).trans (congrArg₂ (· + ·) rfl (mulf_apply _ _ _))

/-- Entry `(k, q)` of the block of weights the body hands the matrix unit is `weight` of the loaded points: each
    running sum `0 + s₀ + s₁ + s₂ + s₃ + s₄` is the sum over the five coordinates. -/
theorem weight_entry (a : Vec Ideal S2048x1x5 .f32) (b : Vec Ideal S1x512x5 .f32) (a0 : Vec Ideal S2048x1x5 .f32)
    (b0 : Vec Ideal S1x512x5 .f32) (k : Fin 2048) (q : Fin 512) :
    k0_pay9 (k0_pay2 a) (k0_pay3 b) (k0_pay4 a0) (k0_pay5 b0) (k0_pay6 a0 b0) (k0_pay7 a b) (k0_pay8 a0 b0) (ix2 k q)
      = weight a b a0 b0 k q := by
  rw [weight_tail, now_sum01, init_sum0, init_diff1]
  simp only [in_points, out_points, in_points0, out_points0]
  unfold weight dist5
  exact congrArg₂ (· - ·)
    (congrArg Ideal.sqrt (running_sum5 fun d => (a (ix3 k (0 : Fin 1) d) - b (ix3 (0 : Fin 1) q d)) * (a (ix3 k (0 : Fin 1) d) - b (ix3 (0 : Fin 1) q d))))
    (congrArg Ideal.sqrt (running_sum5 fun d => (a0 (ix3 k (0 : Fin 1) d) - b0 (ix3 (0 : Fin 1) q d)) * (a0 (ix3 k (0 : Fin 1) d) - b0 (ix3 (0 : Fin 1) q d))))

/-! ## The matrix product and the bias -/

/-- The body's one contraction: a `[512, 2048]` block against a `[2048, 512]` block over the shared axis. -/
abbrev blockDot : DotDims S512x2048 S2048x512 S512x512 := dot_S512x2048_S2048x512_S512x512_1_0_0_1_n_n

theorem lhs_row (i : S512x512.Idx) (r : blockDot.contr.Idx) : (blockDot.lhsIdx i r 0).val = (i 0).val := by
  unfold DotDims.lhsIdx
  rw [dif_neg (show ¬(0 : Fin S512x2048.rank) ∈ blockDot.lhsBatch by decide),
    dif_pos (show (0 : Fin S512x2048.rank) ∈ blockDot.lhsNonContracting by decide)]
  rfl

theorem lhs_contracted (i : S512x512.Idx) (r : blockDot.contr.Idx) :
    (blockDot.lhsIdx i r 1).val = (r ⟨0, by decide⟩).val :=
  blockDot.lhsIdx_val_of_single rfl i r

theorem rhs_contracted (i : S512x512.Idx) (r : blockDot.contr.Idx) :
    (blockDot.rhsIdx i r 0).val = (r ⟨0, by decide⟩).val :=
  blockDot.rhsIdx_val_of_single rfl i r

theorem rhs_col (i : S512x512.Idx) (r : blockDot.contr.Idx) : (blockDot.rhsIdx i r 1).val = (i 1).val := by
  unfold DotDims.rhsIdx
  rw [dif_neg (show ¬(1 : Fin S2048x512.rank) ∈ blockDot.rhsBatch by decide),
    dif_pos (show (1 : Fin S2048x512.rank) ∈ blockDot.rhsNonContracting by decide)]
  rfl

/-- What the body stores, from the block of weights `w`, the batch block and the bias block: at `(p, q)` the sum
    over the 2048 input units of batch times weight — the matrix unit's product into a zero accumulator is the plain
    sum, and the rounding of the batch on its way in is the identity — plus the bias of `q`. -/
theorem product_entry (w : FVec Ideal S2048x512 .bf16) (x : Vec Ideal S512x2048 .f32) (bias : Vec Ideal S512 .f32)
    (p q : Fin 512) :
    k0_pay1 w x bias (ix2 p q) = (∑ k : Fin 2048, x (ix2 p k) * w (ix2 k q)) + bias (ix1 q) := by
  unfold k0_pay1
  refine (addf_apply _ _ _).trans (congrArg₂ (· + ·) ?_ (row_spread_apply bias _ _ p q))
  simp only [matmul]
  rw [Ideal.matmul_constant_zero_apply, ← Equiv.sum_comp (contrEquiv1 blockDot 2048 rfl rfl).symm]
  refine Finset.sum_congr rfl fun k _ => ?_
  have hk := contrEquiv1_symm_val blockDot 2048 rfl rfl k
  have el : blockDot.lhsIdx (ix2 p q) ((contrEquiv1 blockDot 2048 rfl rfl).symm k) = ix2 p k :=
    funext fun a => Fin.ext (by
      match a with
      | ⟨0, _⟩ => exact lhs_row _ _
      | ⟨1, _⟩ => exact (lhs_contracted _ _).trans hk)
  have er : blockDot.rhsIdx (ix2 p q) ((contrEquiv1 blockDot 2048 rfl rfl).symm k) = ix2 k q :=
    funext fun a => Fin.ext (by
      match a with
      | ⟨0, _⟩ => exact (rhs_contracted _ _).trans hk
      | ⟨1, _⟩ => exact rhs_col _ _)
  rw [el, er]
  rfl

/-! ## The block -/

/-- Entry `(p, q)` of what a grid point leaves in its output block is the layer's entry of the point's input
    blocks. -/
theorem block_entry (x : Vec Ideal S512x2048 .f32) (a : Vec Ideal S2048x1x5 .f32) (b : Vec Ideal S1x512x5 .f32)
    (a0 : Vec Ideal S2048x1x5 .f32) (b0 : Vec Ideal S1x512x5 .f32) (bias : Vec Ideal S512 .f32) (p q : Fin 512) :
    out0_6 x a b a0 b0 bias (ix2 p q) = entry x a b a0 b0 bias p q := by
  unfold out0_6
  rw [View.canon_unit_zero hz2]
  simp only [View.ld_unit_zero (S := S2048x1x5) hz3, View.ld_unit_zero (S := S1x512x5) hz3,
    View.ld_unit_zero (S := S512x2048) hz2, View.ld_unit_zero (S := S512) hz1]
  rw [product_entry]
  unfold entry
  exact congrArg (· + bias (ix1 q)) (Finset.sum_congr rfl fun k _ =>
    congrArg (x (ix2 p k) * ·) (weight_entry a b a0 b0 k q))

end Cert.KernelIdeal.Body

end
-- ==== Proof.BlocksToArray.lean ====
/-
  From the blocks the grid points write to the whole result array.

  The grid has 8 × 16 points; point `t = (i, j)` is handed rows `512 i … 512 i + 511` of the batch (all 2048
  columns), all the input units' points, output units `512 j … 512 j + 511`'s points and biases, and writes block
  `(i, j)` of the `[4096, 8192]` result. By BodyEntry.lean entry `(p, q)` of what it writes is the layer's entry of
  its input blocks; an entry depends only on one row of the batch, the input units' points, and one output unit's
  points and bias (`entry_congr`), and those are, read through the blocks, row `512 i + p` of the whole batch and
  output unit `512 j + q` of the whole arrays. So every point writes its block of ONE array — the layer of the
  argument arrays — and the 128 blocks tile the result: the array ends holding the layer.
-/
import proofs.«145144_j43748536877517_1_alg».proof.Proof.Gen.KernelIdeal.Value
import proofs.«145144_j43748536877517_1_alg».proof.Proof.BodyEntry
import Idealize.ShloMosaic.Lib.Pipeline.Value

noncomputable section

namespace Cert.KernelIdeal.Whole

open Cert.KernelIdeal Cert.KernelIdeal.Gen Cert.KernelIdeal.Value Cert.KernelIdeal.Body
open Idealize.ShloMosaic Idealize.ShloMosaic.TcCoe Idealize.SL.Sem Idealize.ShloMosaic.ValueIdx Cert.DistanceLayer
open Idealize.ShloMosaic.Pipeline (Dat)

variable (m : (ℓ : Loc nD τ sig) → Buf (Elt Ideal) ℓ) (ρ : Dev nD → PrngReg)

/-- The result array: the layer of the argument arrays as launched. The kernel's arguments 3 and 4 are the present
    points, 1 and 2 the initial ones. -/
abbrev result (c : Dev nD) : Buf (Elt Ideal) ((c : Thread nD τ).loc main_v0) :=
  layer (m ((c : Thread nD τ).loc main_arg0)) (m ((c : Thread nD τ).loc main_arg3)) (m ((c : Thread nD τ).loc main_arg4)) (m ((c : Thread nD τ).loc main_arg1)) (m ((c : Thread nD τ).loc main_arg2)) (m ((c : Thread nD τ).loc main_arg5))

/-! ## Which block each window hands a point -/

/-- The printed index maps, decided over the 128 grid points: the batch's block follows the output's row block,
    the output units' points and the bias follow its column block, the input units' points are whole; and the
    output's block indices stay in their ranges. -/
theorem idx_facts : ∀ t : Fin cfg0.N,
    win0_0.index t (0 : Fin 2) = win0_6.index t (0 : Fin 2) ∧ win0_0.index t (1 : Fin 2) = 0
    ∧ win0_1.index t (0 : Fin 3) = 0 ∧ win0_1.index t (1 : Fin 3) = 0 ∧ win0_1.index t (2 : Fin 3) = 0
    ∧ win0_2.index t (0 : Fin 3) = 0 ∧ win0_2.index t (1 : Fin 3) = win0_6.index t (1 : Fin 2) ∧ win0_2.index t (2 : Fin 3) = 0
    ∧ win0_3.index t (0 : Fin 3) = 0 ∧ win0_3.index t (1 : Fin 3) = 0 ∧ win0_3.index t (2 : Fin 3) = 0
    ∧ win0_4.index t (0 : Fin 3) = 0 ∧ win0_4.index t (1 : Fin 3) = win0_6.index t (1 : Fin 2) ∧ win0_4.index t (2 : Fin 3) = 0
    ∧ win0_5.index t (0 : Fin 1) = win0_6.index t (1 : Fin 2)
    ∧ win0_6.index t (0 : Fin 2) ≤ 7 ∧ win0_6.index t (1 : Fin 2) ≤ 15 :=
  (by decide +kernel : ∀ t : Fin grid0.N, _)

/-- Every block of the result is some point's. -/
theorem idx_onto : ∀ (q0 : Fin 8) (q1 : Fin 16), ∃ t : Fin cfg0.N, win0_6.index t = ![q0.val, q1.val] :=
  (by decide +kernel : ∀ (q0 : Fin 8) (q1 : Fin 16), ∃ t : Fin grid0.N, win0_6.index t = ![q0.val, q1.val])

/-! ## The input blocks, read as the whole arrays -/

/-- Row `p` of the point's batch block is row `512 i + p` of the batch. -/
theorem read_batch (c : Dev nD) (t : Fin cfg0.N) (p : Fin 512) (k : Fin 2048) (P : Fin 4096)
    (hP : P.val = win0_6.index t (0 : Fin 2) * 512 + p.val) :
    (iblk m c 0 t : Vec Ideal S512x2048 .f32) (ix2 p k)
      = ((m ((c : Thread nD τ).loc main_arg0)) : S4096x2048.Idx → Elt Ideal .f32) (ix2 P k) := by
  obtain ⟨e0, e1, -⟩ := idx_facts t
  unfold iblk
  rw [View.read_apply]
  show (m ((c : Thread nD τ).loc main_arg0)) _ = (m ((c : Thread nD τ).loc main_arg0)) _
  refine congrArg (m ((c : Thread nD τ).loc main_arg0)) ?_
  funext a
  apply Fin.ext
  match a with
  | ⟨0, _⟩ => show win0_0.index t (0 : Fin 2) * 512 + 1 * p.val = P.val; rw [e0, hP]; omega
  | ⟨1, _⟩ => show win0_0.index t (1 : Fin 2) * 2048 + 1 * k.val = k.val; rw [e1]; omega

/-- The input units' present points are handed whole. -/
theorem read_in_points (c : Dev nD) (t : Fin cfg0.N) (k : Fin 2048) (d : Fin 5) :
    (iblk m c 1 t : Vec Ideal S2048x1x5 .f32) (ix3 k (0 : Fin 1) d)
      = ((m ((c : Thread nD τ).loc main_arg3)) : S2048x1x5.Idx → Elt Ideal .f32) (ix3 k (0 : Fin 1) d) := by
  obtain ⟨-, -, e0, e1, e2, -⟩ := idx_facts t
  unfold iblk
  rw [View.read_apply]
  show (m ((c : Thread nD τ).loc main_arg3)) _ = (m ((c : Thread nD τ).loc main_arg3)) _
  refine congrArg (m ((c : Thread nD τ).loc main_arg3)) ?_
  funext a
  apply Fin.ext
  match a with
  | ⟨0, _⟩ => show win0_1.index t (0 : Fin 3) * 2048 + 1 * k.val = k.val; rw [e0]; omega
  | ⟨1, _⟩ => show win0_1.index t (1 : Fin 3) * 1 + 1 * 0 = 0; rw [e1]
  | ⟨2, _⟩ => show win0_1.index t (2 : Fin 3) * 5 + 1 * d.val = d.val; rw [e2]; omega

/-- Output unit `q` of the point's block of present points is output unit `512 j + q`. -/
theorem read_out_points (c : Dev nD) (t : Fin cfg0.N) (q : Fin 512) (d : Fin 5) (Q : Fin 8192)
    (hQ : Q.val = win0_6.index t (1 : Fin 2) * 512 + q.val) :
    (iblk m c 2 t : Vec Ideal S1x512x5 .f32) (ix3 (0 : Fin 1) q d)
      = ((m ((c : Thread nD τ).loc main_arg4)) : S1x8192x5.Idx → Elt Ideal .f32) (ix3 (0 : Fin 1) Q d) := by
  obtain ⟨-, -, -, -, -, e0, e1, e2, -⟩ := idx_facts t
  unfold iblk
  rw [View.read_apply]
  show (m ((c : Thread nD τ).loc main_arg4)) _ = (m ((c : Thread nD τ).loc main_arg4)) _
  refine congrArg (m ((c : Thread nD τ).loc main_arg4)) ?_
  funext a
  apply Fin.ext
  match a with
  | ⟨0, _⟩ => show win0_2.index t (0 : Fin 3) * 1 + 1 * 0 = 0; rw [e0]
  | ⟨1, _⟩ => show win0_2.index t (1 : Fin 3) * 512 + 1 * q.val = Q.val; rw [e1, hQ]; omega
  | ⟨2, _⟩ => show win0_2.index t (2 : Fin 3) * 5 + 1 * d.val = d.val; rw [e2]; omega

/-- The input units' initial points are handed whole. -/
theorem read_in_points0 (c : Dev nD) (t : Fin cfg0.N) (k : Fin 2048) (d : Fin 5) :
    (iblk m c 3 t : Vec Ideal S2048x1x5 .f32) (ix3 k (0 : Fin 1) d)
      = ((m ((c : Thread nD τ).loc main_arg1)) : S2048x1x5.Idx → Elt Ideal .f32) (ix3 k (0 : Fin 1) d) := by
  obtain ⟨-, -, -, -, -, -, -, -, e0, e1, e2, -⟩ := idx_facts t
  unfold iblk
  rw [View.read_apply]
  show (m ((c : Thread nD τ).loc main_arg1)) _ = (m ((c : Thread nD τ).loc main_arg1)) _
  refine congrArg (m ((c : Thread nD τ).loc main_arg1)) ?_
  funext a
  apply Fin.ext
  match a with
  | ⟨0, _⟩ => show win0_3.index t (0 : Fin 3) * 2048 + 1 * k.val = k.val; rw [e0]; omega
  | ⟨1, _⟩ => show win0_3.index t (1 : Fin 3) * 1 + 1 * 0 = 0; rw [e1]
  | ⟨2, _⟩ => show win0_3.index t (2 : Fin 3) * 5 + 1 * d.val = d.val; rw [e2]; omega

/-- Output unit `q` of the point's block of initial points is output unit `512 j + q`. -/
theorem read_out_points0 (c : Dev nD) (t : Fin cfg0.N) (q : Fin 512) (d : Fin 5) (Q : Fin 8192)
    (hQ : Q.val = win0_6.index t (1 : Fin 2) * 512 + q.val) :
    (iblk m c 4 t : Vec Ideal S1x512x5 .f32) (ix3 (0 : Fin 1) q d)
      = ((m ((c : Thread nD τ).loc main_arg2)) : S1x8192x5.Idx → Elt Ideal .f32) (ix3 (0 : Fin 1) Q d) := by
  obtain ⟨-, -, -, -, -, -, -, -, -, -, -, e0, e1, e2, -⟩ := idx_facts t
  unfold iblk
  rw [View.read_apply]
  show (m ((c : Thread nD τ).loc main_arg2)) _ = (m ((c : Thread nD τ).loc main_arg2)) _
  refine congrArg (m ((c : Thread nD τ).loc main_arg2)) ?_
  funext a
  apply Fin.ext
  match a with
  | ⟨0, _⟩ => show win0_4.index t (0 : Fin 3) * 1 + 1 * 0 = 0; rw [e0]
  | ⟨1, _⟩ => show win0_4.index t (1 : Fin 3) * 512 + 1 * q.val = Q.val; rw [e1, hQ]; omega
  | ⟨2, _⟩ => show win0_4.index t (2 : Fin 3) * 5 + 1 * d.val = d.val; rw [e2]; omega

/-- Entry `q` of the point's bias block is the bias of output unit `512 j + q`. -/
theorem read_bias (c : Dev nD) (t : Fin cfg0.N) (q : Fin 512) (Q : Fin 8192)
    (hQ : Q.val = win0_6.index t (1 : Fin 2) * 512 + q.val) :
    (iblk m c 5 t : Vec Ideal S512 .f32) (ix1 q) = ((m ((c : Thread nD τ).loc main_arg5)) : S8192.Idx → Elt Ideal .f32) (ix1 Q) := by
  obtain ⟨-, -, -, -, -, -, -, -, -, -, -, -, -, -, e0, -⟩ := idx_facts t
  unfold iblk
  rw [View.read_apply]
  show (m ((c : Thread nD τ).loc main_arg5)) _ = (m ((c : Thread nD τ).loc main_arg5)) _
  refine congrArg (m ((c : Thread nD τ).loc main_arg5)) ?_
  funext a
  apply Fin.ext
  match a with
  | ⟨0, _⟩ => show win0_5.index t (0 : Fin 1) * 512 + 1 * q.val = Q.val; rw [e0, hQ]; omega

/-! ## What a point writes back -/

/-- Entry `(p, q)` of what point `t` leaves in its output block is the result at the entry's place in the array. -/
theorem point_block (c : Dev nD) (t : Fin cfg0.N) (j : S512x512.Idx) :
    out0_6 (iblk m c 0 t) (iblk m c 1 t) (iblk m c 2 t) (iblk m c 3 t) (iblk m c 4 t) (iblk m c 5 t) j
      = result m c (((cfg0.win 6).blk t).view.emb j) := by
  obtain ⟨p, q, rfl⟩ : ∃ (p q : Fin 512), j = ix2 p q := ⟨j 0, j 1, eq_ix2 j⟩
  have hb := idx_facts t
  have hp := p.isLt
  have hq := q.isLt
  have hemb : ((cfg0.win 6).blk t).view.emb (ix2 p q)
      = ix2 (⟨win0_6.index t (0 : Fin 2) * 512 + p.val, by omega⟩ : Fin 4096)
          (⟨win0_6.index t (1 : Fin 2) * 512 + q.val, by omega⟩ : Fin 8192) := by
    funext a
    apply Fin.ext
    match a with
    | ⟨0, _⟩ => show win0_6.index t (0 : Fin 2) * 512 + 1 * p.val = win0_6.index t (0 : Fin 2) * 512 + p.val; omega
    | ⟨1, _⟩ => show win0_6.index t (1 : Fin 2) * 512 + 1 * q.val = win0_6.index t (1 : Fin 2) * 512 + q.val; omega
  refine Eq.trans (block_entry _ _ _ _ _ _ p q) (Eq.trans ?_ (congrArg (result m c) hemb).symm)
  show entry _ _ _ _ _ _ p q = entry _ _ _ _ _ _ _ _
  exact entry_congr _ _ _ _ _ _ _ _ _ _ _ _ p q _ _
    (fun k => read_batch m c t p k _ rfl) (fun k d => read_in_points m c t k d)
    (fun d => read_out_points m c t q d _ rfl) (fun k d => read_in_points0 m c t k d)
    (fun d => read_out_points0 m c t q d _ rfl) (read_bias m c t q _ rfl)

/-- WHAT POINT `t` WRITES BACK is block `t` of the result. -/
theorem flushed_eq (c : Dev nD) (t : Fin cfg0.N) :
    (dats m 0 c).flushed 6 t = ((cfg0.win 6).blk t).view.read (Elt Ideal) (result m c) := by
  show (cfg0.win 6).cut (grid0.coords t) ((dats m 0 c).after 6 t) = _
  rw [after0_6]
  exact funext fun j => point_block m c t j

/-! ## The blocks tile the array -/

/-- An index of the result is in point `t`'s block iff each coordinate is in the block's range on its axis. -/
theorem mem_blk (t : Fin cfg0.N) (i : S4096x8192.Idx) :
    i ∈ ((cfg0.win 6).blk t).view.set ↔ ∀ a : Fin 2, win0_6.index t a * S512x512.size a ≤ (i a).val
      ∧ (i a).val < win0_6.index t a * S512x512.size a + S512x512.size a := by
  show i ∈ ((View.whole main_v0).slice (win0_6.rect t)).set ↔ _
  rw [View.set_slice_whole, Rect.mem_set_unit]
  exact Iff.rfl

/-- Every index of the result is in the block of the point at its row block and column block. -/
theorem cover (i : S4096x8192.Idx) :
    ∃ t : Fin cfg0.N, (cfg0.win 6).flush t = true ∧ i ∈ ((cfg0.win 6).blk t).view.set := by
  have hi0 : (i 0).val < 4096 := (i 0).isLt
  have hi1 : (i 1).val < 8192 := (i 1).isLt
  obtain ⟨t, ht⟩ := idx_onto ⟨(i 0).val / 512, by omega⟩ ⟨(i 1).val / 512, by omega⟩
  have q0 : win0_6.index t (0 : Fin 2) = (i 0).val / 512 := congrFun ht 0
  have q1 : win0_6.index t (1 : Fin 2) = (i 1).val / 512 := congrFun ht 1
  refine ⟨t, flush0_6 t, ?_⟩
  rw [mem_blk]
  intro a
  match a with
  | ⟨0, _⟩ =>
    show win0_6.index t (0 : Fin 2) * 512 ≤ (i 0).val ∧ (i 0).val < win0_6.index t (0 : Fin 2) * 512 + 512
    omega
  | ⟨1, _⟩ =>
    show win0_6.index t (1 : Fin 2) * 512 ≤ (i 1).val ∧ (i 1).val < win0_6.index t (1 : Fin 2) * 512 + 512
    omega

/-- THE ARRAY after the run is the layer of the argument arrays. -/
theorem final (c : Dev nD) : (dats m 0 c).arrAt 6 cfg0.N = result m c :=
  (dats m 0 c).arrAt_eq_of_cover 6 (result m c) (fun t _ => flushed_eq m c t) cover

/-! ## The run, read -/

/-- Every weakly fair execution of the kernel's program terminates with the result array at the layer of the
    argument arrays and the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (run_blocks m ρ)

end Cert.KernelIdeal.Whole

end
-- ==== Proof.lean ====
/-
  The certificate of a dense layer whose weights are generated from positions: the weight joining input unit `k`
  to output unit `n` is the Euclidean distance between their points in five dimensions minus the distance between
  their initial points, and the layer is `x · w + bias` on a batch of 4096 rows of 2048 inputs onto 8192 output
  units.

  The kernel never holds the `[2048, 8192]` weight matrix: each of its 8 × 16 grid points builds the `[2048, 512]`
  block of weights it needs from the points, coordinate by coordinate with a running sum of squares, multiplies its
  `[512, 2048]` block of the batch by it on the matrix unit into a zero accumulator, adds the bias row and writes a
  `[512, 512]` block of the result. The reference builds the two `[2048, 8192, 5]` arrays of all coordinate
  differences, sums their squares over the last axis, takes roots, subtracts, and multiplies the whole batch by the
  whole weight matrix.

  On the extended reals, where no operation rounds, both are the function `DistanceLayer.layer` of the argument
  arrays: the kernel's running sum `0 + s₀ + s₁ + s₂ + s₃ + s₄` and the reference's `0 + ∑ d, s d` are the same sum by
  associativity and `0 + s = s` (no finiteness is used, so the precondition is never opened), the matrix unit's
  product into zero and the host's product are the same sum over the 2048 input units, and the 128 blocks tile
  the result. The frames of the two printed kernels are the generated ones, the reference's frame is its generated
  run with the result forgotten, and the idealized kernel is the printed kernel's own text read on the extended
  reals (nothing was rewritten, so there is nothing to preserve).
-/
import proofs.«145144_j43748536877517_1_alg».proof.Defs
import proofs.«145144_j43748536877517_1_alg».proof.Proof.Gen.Kernel
import proofs.«145144_j43748536877517_1_alg».proof.Proof.Gen.Kernel.Frame
import proofs.«145144_j43748536877517_1_alg».proof.Proof.Gen.KernelIdeal
import proofs.«145144_j43748536877517_1_alg».proof.Proof.Gen.KernelIdeal.Frame
import proofs.«145144_j43748536877517_1_alg».proof.Proof.Gen.KernelIdeal.Value
import proofs.«145144_j43748536877517_1_alg».proof.Proof.Gen.ReferenceIdeal
import proofs.«145144_j43748536877517_1_alg».proof.Proof.Gen.ReferenceIdeal.Run
import proofs.«145144_j43748536877517_1_alg».proof.Proof.Gen.ReferenceIdeal.Read
import proofs.«145144_j43748536877517_1_alg».proof.Proof.Gen.Pre_finite_inputs
import proofs.«145144_j43748536877517_1_alg».proof.Proof.RefIsLayer
import proofs.«145144_j43748536877517_1_alg».proof.Proof.BlocksToArray
import Idealize.ShloMosaic.Adequacy
import Idealize.ShloMosaic.Init

noncomputable section

namespace Cert.Proof

open Idealize.ShloMosaic Idealize.ShloMosaic.TcCoe Idealize.SL.Sem

/-- The printed kernel runs, and leaves its arguments as they were. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- The reference runs and leaves its arguments as they were: its run, with what it computes forgotten. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the six arguments, the kernel's result array ends at the layer of its arguments
    (BlocksToArray.lean) and the reference's at its last stage, which is the layer of its arguments
    (RefIsLayer.lean): one array. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5⟩ := hagree c
  rw [Cert.ReferenceIdeal.Read.val_main_v16_eq, Cert.ReferenceIdeal.RefValue.ref_is_layer, h0, h1, h2, h3, h4, h5]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
